-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x512 : Shape := ⟨2, ![1024, 512]⟩
abbrev S512x512 : Shape := ⟨2, ![512, 512]⟩
abbrev S512 : Shape := ⟨1, ![512]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn {F : FTy → Type} [FloatOps F] (main_arg0 : FVec F S1024x512 .f32) (main_arg1 : FVec F S512x512 .f32) (main_arg2 : FVec F S512 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  main_v13
-- ==== Kernel.lean ====
abbrev S1024x512 : Shape := ⟨2, ![1024, 512]⟩
abbrev S512x512 : Shape := ⟨2, ![512, 512]⟩
abbrev S512 : Shape := ⟨1, ![512]⟩
abbrev S1x512 : Shape := ⟨2, ![1, 512]⟩
abbrev S128x512 : Shape := ⟨2, ![128, 512]⟩
abbrev S128x128 : Shape := ⟨2, ![128, 128]⟩
abbrev S128x1x128 : Shape := ⟨3, ![128, 1, 128]⟩
abbrev S1x128x128 : Shape := ⟨3, ![1, 128, 128]⟩
abbrev S128x128x128 : Shape := ⟨3, ![128, 128, 128]⟩
abbrev S1x128 : Shape := ⟨2, ![1, 128]⟩

abbrev nBuf : Space → Nat
  | .hbm => 5
  | .vmem => 6
  | .smem => 0
  | _ => 0

abbrev bufTy : (tb : Table) → Fin (tcTables nBuf tb) → BufTy
  | .hbm, ⟨0, _⟩ => ⟨S1024x512, .f32⟩
  | .hbm, ⟨1, _⟩ => ⟨S512x512, .f32⟩
  | .hbm, ⟨2, _⟩ => ⟨S512, .f32⟩
  | .hbm, ⟨3, _⟩ => ⟨S1x512, .f32⟩
  | .hbm, ⟨4, _⟩ => ⟨S1024x512, .f32⟩
  | .local _ .vmem, ⟨0, _⟩ => ⟨S128x512, .f32⟩
  | .local _ .vmem, ⟨1, _⟩ => ⟨S128x512, .f32⟩
  | .local _ .vmem, ⟨2, _⟩ => ⟨S512x512, .f32⟩
  | .local _ .vmem, ⟨3, _⟩ => ⟨S1x512, .f32⟩
  | .local _ .vmem, ⟨4, _⟩ => ⟨S128x512, .f32⟩
  | .local _ .vmem, ⟨5, _⟩ => ⟨S128x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S512_S1x512 : S512.ShapeCasts S1x512
  inb_S128x512_S128x512_0_0 : ∀ a, (![0, 0] : Fin 2 → Nat) a + S128x512.size a ≤ S128x512.size a
  h_S128x512 : 0 < S128x512.numel
  inb_S512x512_S512x512_0_0 : ∀ a, (![0, 0] : Fin 2 → Nat) a + S512x512.size a ≤ S512x512.size a
  h_S512x512 : 0 < S512x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  slices_S512x512_o0_0_S128x512 : S512x512.Slices ![0, 0] S128x512
  slices_S128x512_o0_0_S128x128 : S128x512.Slices ![0, 0] S128x128
  shapeCasts_S128x128_S128x1x128 : S128x128.ShapeCasts S128x1x128
  shapeCasts_S128x128_S1x128x128 : S128x128.ShapeCasts S1x128x128
  broadcasts_S128x1x128_S128x128x128 : S128x1x128.Broadcasts S128x128x128
  broadcasts_S1x128x128_S128x128x128 : S1x128x128.Broadcasts S128x128x128
  reduces_S128x128x128_S128x128 : S128x128x128.Reduces [2] S128x128
  slices_S128x512_o0_128_S128x128 : S128x512.Slices ![0, 128] S128x128
  slices_S128x512_o0_256_S128x128 : S128x512.Slices ![0, 256] S128x128
  slices_S128x512_o0_384_S128x128 : S128x512.Slices ![0, 384] S128x128
  slices_S1x512_o0_0_S1x128 : S1x512.Slices ![0, 0] S1x128
  broadcasts_S1x128_S128x128 : S1x128.Broadcasts S128x128
  inb_S128x512_S128x128_0_0 : ∀ a, (![0, 0] : Fin 2 → Nat) a + S128x128.size a ≤ S128x512.size a
  h_S128x128 : 0 < S128x128.numel
  slices_S512x512_o128_0_S128x512 : S512x512.Slices ![128, 0] S128x512
  slices_S1x512_o0_128_S1x128 : S1x512.Slices ![0, 128] S1x128
  inb_S128x512_S128x128_0_128 : ∀ a, (![0, 128] : Fin 2 → Nat) a + S128x128.size a ≤ S128x512.size a
  slices_S512x512_o256_0_S128x512 : S512x512.Slices ![256, 0] S128x512
  slices_S1x512_o0_256_S1x128 : S1x512.Slices ![0, 256] S1x128
  inb_S128x512_S128x128_0_256 : ∀ a, (![0, 256] : Fin 2 → Nat) a + S128x128.size a ≤ S128x512.size a
  slices_S512x512_o384_0_S128x512 : S512x512.Slices ![384, 0] S128x512
  slices_S1x512_o0_384_S1x128 : S1x512.Slices ![0, 384] S1x128
  inb_S128x512_S128x128_0_384 : ∀ a, (![0, 384] : Fin 2 → Nat) a + S128x128.size a ≤ S128x512.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x512.size a ≤ S1024x512.size a
  hwx0_0 : ∀ i : grid0.Coords, EltTy.bits .f32 = 32 ∨ (Rect.block (s := S1024x512) S128x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x512.size a ≤ S1024x512.size a
  hwx0_3 : ∀ i : grid0.Coords, EltTy.bits .f32 = 32 ∨ (Rect.block (s := S1024x512) S128x512.size (cc0_transform_3 i) (hinb0_3 i)).WholeWords (EltTy.packing .f32)

variable [Facts₀]

abbrev win0_0 : Pipeline.Window sig grid0 :=
  Pipeline.Window.ofSpec (Memref.whole main_arg0) S128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S128x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1024x512 : Shape := ⟨2, ![1024, 512]⟩
abbrev S512x512 : Shape := ⟨2, ![512, 512]⟩
abbrev S512 : Shape := ⟨1, ![512]⟩
abbrev S1024x1x512 : Shape := ⟨3, ![1024, 1, 512]⟩
abbrev S1x512x512 : Shape := ⟨3, ![1, 512, 512]⟩
abbrev S1024x512x512 : Shape := ⟨3, ![1024, 512, 512]⟩
abbrev S_ : Shape := ⟨0, ![]⟩
abbrev S1x512 : Shape := ⟨2, ![1, 512]⟩

abbrev nBuf : Space → Nat
  | .hbm => 15
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S512x512, .f32⟩
  | .hbm, ⟨2, _⟩ => ⟨S512, .f32⟩
  | .hbm, ⟨3, _⟩ => ⟨S1024x1x512, .f32⟩
  | .hbm, ⟨4, _⟩ => ⟨S1x512x512, .f32⟩
  | .hbm, ⟨5, _⟩ => ⟨S1024x512x512, .f32⟩
  | .hbm, ⟨6, _⟩ => ⟨S1024x512x512, .f32⟩
  | .hbm, ⟨7, _⟩ => ⟨S1024x512x512, .f32⟩
  | .hbm, ⟨8, _⟩ => ⟨S1024x512x512, .f32⟩
  | .hbm, ⟨9, _⟩ => ⟨S_, .f32⟩
  | .hbm, ⟨10, _⟩ => ⟨S1024x512, .f32⟩
  | .hbm, ⟨11, _⟩ => ⟨S1024x512, .f32⟩
  | .hbm, ⟨12, _⟩ => ⟨S1x512, .f32⟩
  | .hbm, ⟨13, _⟩ => ⟨S1024x512, .f32⟩
  | .hbm, ⟨14, _⟩ => ⟨S1024x512, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]

class Facts₀ : Prop where
  bcast_S1024x512_S1024x1x512_0_2 : S1024x512.BroadcastsInDim S1024x1x512 (![0, 2] : Fin 2 → Fin S1024x1x512.rank)
  bcast_S512x512_S1x512x512_1_2 : S512x512.BroadcastsInDim S1x512x512 (![1, 2] : Fin 2 → Fin S1x512x512.rank)
  bcast_S1024x1x512_S1024x512x512_0_1_2 : S1024x1x512.BroadcastsInDim S1024x512x512 (![0, 1, 2] : Fin 3 → Fin S1024x512x512.rank)
  bcast_S1x512x512_S1024x512x512_0_1_2 : S1x512x512.BroadcastsInDim S1024x512x512 (![0, 1, 2] : Fin 3 → Fin S1024x512x512.rank)
  reducesTo_S1024x512x512_S1024x512_d2 : S1024x512x512.ReducesTo [2] S1024x512
  h_S_ : 0 < S_.numel
  bcast_S512_S1x512_1 : S512.BroadcastsInDim S1x512 (![1] : Fin 1 → Fin S1x512.rank)
  bcast_S1x512_S1024x512_0_1 : S1x512.BroadcastsInDim S1024x512 (![0, 1] : Fin 2 → Fin S1024x512.rank)

variable [Facts₀]

class Facts : Prop extends Facts₀ where

variable [Facts]
-- ==== Proof.LibTileSum.lean ====
/-
  A sum over the rows of an array cut into equal row tiles, regrouped tile by tile.

  An array of `T * R` rows read in `T` consecutive tiles of `R` rows each: row `t * R + p` is row `p` of tile `t`.
  Over any commutative additive monoid the sum over all the rows is the sum, over the tiles, of each tile's sum over
  its own rows — associativity and commutativity of the addition only.
-/
import Mathlib.Algebra.BigOperators.Fin
import Mathlib.Algebra.BigOperators.Group.Finset.Basic
import Mathlib.Logic.Equiv.Fin.Basic

namespace Cert.LibTileSum

open Finset

/-- Row `p` of tile `t`, among `T` tiles of `R` rows, is a row of the whole: `t * R + p < T * R`. -/
theorem tile_lt {T R : ℕ} (t : Fin T) (p : Fin R) : t.val * R + p.val < T * R :=
  calc t.val * R + p.val < t.val * R + R := Nat.add_lt_add_left p.isLt _
    _ = (t.val + 1) * R := (Nat.succ_mul _ _).symm
    _ ≤ T * R := Nat.mul_le_mul_right R t.isLt

/-- The sum over the `T * R` rows is the sum over the `T` tiles of the sum over each tile's `R` rows, row `p` of
    tile `t` being row `t * R + p` of the whole. -/
theorem sum_rows_eq_sum_tiles {M : Type*} [AddCommMonoid M] {N : ℕ} (T R : ℕ) (h : N = T * R) (f : Fin N → M) :
    ∑ i : Fin N, f i = ∑ t : Fin T, ∑ p : Fin R, f ⟨t.val * R + p.val, h ▸ tile_lt t p⟩ := by
  subst h
  rw [← Equiv.sum_comp (finProdFinEquiv (m := T) (n := R)) f, Fintype.sum_prod_type]
  refine Finset.sum_congr rfl fun t _ => Finset.sum_congr rfl fun p _ => ?_
  congr 1
  apply Fin.ext
  show p.val + R * t.val = t.val * R + p.val
  rw [Nat.mul_comm, Nat.add_comm]

/-- The same with the tiles counted by a natural number below `T`: the form a fold over the grid's points unrolls to.
    `g s` is tile `s`'s contribution, a function of every natural number. -/
theorem sum_range_eq_sum_fin {M : Type*} [AddCommMonoid M] (T : ℕ) (g : ℕ → M) :
    ∑ s ∈ Finset.range T, g s = ∑ t : Fin T, g t.val :=
  (Fin.sum_univ_eq_sum_range g T).symm

end Cert.LibTileSum
-- ==== Proof.LibPairwiseLayout.lean ====
/-
  Layout operations of an all-pairs ("outer") broadcast, read at an index.

  To set every row of one [a, c] matrix against every row of another [b, c] matrix, a kernel casts the first to [a, 1, c] and
  the second to [1, b, c] and broadcasts both to [a, b, c] (`x[:, None, :]` against `w[None, :, :]`). Read at (i, j, k):
  the cast to [a, 1, c] is the operand at (i, k); its broadcast over the middle axis reads the middle coordinate 0; the
  broadcast of a [1, b, c] array over the leading axis reads the leading coordinate 0. (The cast [b, c] → [1, b, c] read at an
  index is the library's `shapeCast_ab_1ab_apply`.) Generic in the sizes and the element type.
-/
import Idealize.ShloMosaic.Lib.ValueIdx
import Idealize.ShloMosaic.Lib.ValueLayout
import Idealize.ShloMosaic.Lib.Pipeline.Value

noncomputable section

namespace Cert.PairwiseLayout

open Idealize.ShloMosaic Idealize.ShloMosaic.ValueIdx

section Layout
variable {α : Type}

/-- An [a, b] array cast to [a, 1, b] reads, at (i, u, j), the operand at (i, j). -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An [a, 1, c] array broadcast to [a, b, c] reads, at (i, j, k), the operand at (i, 0, k): every middle coordinate sees the same row. -/
theorem broadcastTo_a1c_abc_apply {a b c : ℕ} (x : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ x h (ix3 i j k) = x (ix3 i (0 : Fin 1) k) := by
  refine broadcastTo_apply x h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A [1, b, c] array broadcast to [a, b, c] reads, at (i, j, k), the operand at (0, j, k): every leading coordinate sees the same matrix. -/
theorem broadcastTo_1bc_abc_apply {a b c : ℕ} (x : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ x h (ix3 i j k) = x (ix3 (0 : Fin 1) j k) := by
  refine broadcastTo_apply x h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

end Layout

end Cert.PairwiseLayout

end
-- ==== Proof.ChunkSum.lean ====
/-
  The L1 ("addition") linear layer, index by index, and the two ways its sum over the input features is formed.

  The layer's entry for batch row r and output feature o is
      - (∑ k, |x r k - w o k|) + b o
  on the extended reals, |a - b| being max (a - b) (-(a - b)). One program forms the sum over all 512 input
  features at once; the other cuts the features into four consecutive chunks of 128, sums each chunk with a lane
  reduction over a [128, 128, 128] array of differences (rows of x against rows of w, broadcast against each other),
  and adds the four chunk sums onto a zero accumulator. The two agree by associativity and commutativity of the
  addition alone: no finiteness of the inputs is used.
-/
import Idealize.ShloMosaic.Lib.ValueIdx
import Idealize.ShloMosaic.Lib.ValueLayout
import Idealize.ShloMosaic.Lib.Pipeline.Value
import Idealize.ShloMosaic.PureOps.Ideal.Laws
import proofs.«163117_j77189152243805_2_alg».proof.Proof.LibTileSum
import proofs.«163117_j77189152243805_2_alg».proof.Proof.LibPairwiseLayout

noncomputable section

namespace Cert.L1

open Idealize.ShloMosaic Idealize.ShloMosaic.ValueIdx Cert.PairwiseLayout

/-- The absolute difference of two extended reals, as both programs compute it: the larger of a - b and its negation. -/
def gap (a b : EReal) : EReal := max (a - b) (-(a - b))

/-- The layer's entry for row `r` of x and row `o` of w: minus the sum over the 512 input features of |x r k - w o k|, plus
    the bias of `o`. The bias is given as a function of the output feature, whatever array lays it out. -/
def entry {B O : ℕ} (x : (⟨2, ![B, 512]⟩ : Shape).Idx → EReal) (w : (⟨2, ![O, 512]⟩ : Shape).Idx → EReal) (bias : Fin O → EReal)
    (r : Fin B) (o : Fin O) : EReal :=
  -(∑ k : Fin 512, gap (x (ix2 r k)) (w (ix2 o k))) + bias o

/-- THE LAYER: the [1024, 512] result as one function of x [1024, 512], w [512, 512] and the bias vector [512]. -/
def layer (x : (⟨2, ![1024, 512]⟩ : Shape).Idx → EReal) (w : (⟨2, ![512, 512]⟩ : Shape).Idx → EReal)
    (b : (⟨1, ![512]⟩ : Shape).Idx → EReal) : (⟨2, ![1024, 512]⟩ : Shape).Idx → EReal :=
  fun i => entry x w (fun o => b (ix1 o)) (i 0) (i 1)

/-- The sum over 512 consecutive features is the sum of the sums over its four consecutive chunks of 128. -/
theorem sum_four_chunks {M : Type*} [AddCommMonoid M] (f : Fin 512 → M) :
    ∑ k : Fin 512, f k
      = (((∑ k : Fin 128, f ⟨0 + k.val, by have := k.isLt; omega⟩) + ∑ k : Fin 128, f ⟨128 + k.val, by have := k.isLt; omega⟩)
          + ∑ k : Fin 128, f ⟨256 + k.val, by have := k.isLt; omega⟩) + ∑ k : Fin 128, f ⟨384 + k.val, by have := k.isLt; omega⟩ := by
  rw [Cert.LibTileSum.sum_rows_eq_sum_tiles 4 128 rfl f, Fin.sum_univ_four]
  rfl

/-! ## One chunk, the four chunks accumulated, and one stored piece -/

/-- ONE CHUNK. Rows of xs against rows of ws: the [128, 128] arrays cast to [128, 1, 128] and [1, 128, 128], broadcast
    against each other to [128, 128, 128], subtracted, made absolute and summed over the last axis. At (p, q) that is the
    sum over the chunk's 128 features of |xs p k - ws q k|. -/
theorem chunk_apply (xs ws : FVec Ideal ⟨2, ![128, 128]⟩ .f32)
    (h1 : (⟨2, ![128, 128]⟩ : Shape).ShapeCasts ⟨3, ![128, 1, 128]⟩) (h2 : (⟨2, ![128, 128]⟩ : Shape).ShapeCasts ⟨3, ![1, 128, 128]⟩)
    (b1 : (⟨3, ![128, 1, 128]⟩ : Shape).Broadcasts ⟨3, ![128, 128, 128]⟩) (b2 : (⟨3, ![1, 128, 128]⟩ : Shape).Broadcasts ⟨3, ![128, 128, 128]⟩)
    (hr : (⟨3, ![128, 128, 128]⟩ : Shape).Reduces [2] ⟨2, ![128, 128]⟩) (hφ : FKind.Formats .f32)
    (hacc : (0x00000000#32 : BitVec 32) = FKind.add.neutral .f32 hφ) (p q : Fin 128) :
    multiReduction .add [2] ⟨2, ![128, 128]⟩
        (absf (subf (broadcastTo ⟨3, ![128, 128, 128]⟩ (shapeCast ⟨3, ![128, 1, 128]⟩ xs h1) b1)
          (broadcastTo ⟨3, ![128, 128, 128]⟩ (shapeCast ⟨3, ![1, 128, 128]⟩ ws h2) b2)))
        0x00000000#32 hr hφ hacc (ix2 p q)
      = ∑ k : Fin 128, gap (xs (ix2 p k)) (ws (ix2 q k)) := by
  refine (Ideal.multiReduction_add_single _ _ hr hφ hacc (ix2 p q)).trans ?_
  refine Finset.sum_congr rfl fun (k : Fin 128) _ => ?_
  have hl : hr.lift (ix2 p q) k = ix3 p q k :=
    funext fun a => Fin.ext (by match a with | ⟨0, _⟩ => rfl | ⟨1, _⟩ => rfl | ⟨2, _⟩ => rfl)
  rw [hl]
  have hd : subf (broadcastTo ⟨3, ![128, 128, 128]⟩ (shapeCast ⟨3, ![128, 1, 128]⟩ xs h1) b1)
      (broadcastTo ⟨3, ![128, 128, 128]⟩ (shapeCast ⟨3, ![1, 128, 128]⟩ ws h2) b2) (ix3 p q k)
        = xs (ix2 p k) - ws (ix2 q k) := by
    rw [subf_apply, broadcastTo_a1c_abc_apply, broadcastTo_1bc_abc_apply, shapeCast_ab_a1b_apply, shapeCast_ab_1ab_apply]
  show max (subf _ _ (ix3 p q k)) (-(subf _ _ (ix3 p q k))) = _
  rw [hd]
  rfl

/-- The chunk of features from `o` on: the [128, 128] slices of the two [128, 512] operands there, through `chunk_apply`'s operations. -/
abbrev chunkOf {F : FTy → Type} [FloatOps F] (o : ℕ) (v0 v4 : FVec F ⟨2, ![128, 512]⟩ .f32)
    (hs : (⟨2, ![128, 512]⟩ : Shape).Slices ![0, o] ⟨2, ![128, 128]⟩)
    (h1 : (⟨2, ![128, 128]⟩ : Shape).ShapeCasts ⟨3, ![128, 1, 128]⟩) (h2 : (⟨2, ![128, 128]⟩ : Shape).ShapeCasts ⟨3, ![1, 128, 128]⟩)
    (b1 : (⟨3, ![128, 1, 128]⟩ : Shape).Broadcasts ⟨3, ![128, 128, 128]⟩) (b2 : (⟨3, ![1, 128, 128]⟩ : Shape).Broadcasts ⟨3, ![128, 128, 128]⟩)
    (hr : (⟨3, ![128, 128, 128]⟩ : Shape).Reduces [2] ⟨2, ![128, 128]⟩) (hφ : FKind.Formats .f32)
    (hacc : (0x00000000#32 : BitVec 32) = FKind.add.neutral .f32 hφ) : FVec F ⟨2, ![128, 128]⟩ .f32 :=
  multiReduction .add [2] ⟨2, ![128, 128]⟩
    (absf (subf (broadcastTo ⟨3, ![128, 128, 128]⟩ (shapeCast ⟨3, ![128, 1, 128]⟩ (extractStridedSlice ⟨2, ![128, 128]⟩ ![0, o] v0 hs) h1) b1)
      (broadcastTo ⟨3, ![128, 128, 128]⟩ (shapeCast ⟨3, ![1, 128, 128]⟩ (extractStridedSlice ⟨2, ![128, 128]⟩ ![0, o] v4 hs) h2) b2)))
    0x00000000#32 hr hφ hacc

/-- The four chunks added, in order, onto a zero accumulator. -/
abbrev tileOf {F : FTy → Type} [FloatOps F] (z : F .f32) (v0 v4 : FVec F ⟨2, ![128, 512]⟩ .f32)
    (hs0 : (⟨2, ![128, 512]⟩ : Shape).Slices ![0, 0] ⟨2, ![128, 128]⟩) (hs1 : (⟨2, ![128, 512]⟩ : Shape).Slices ![0, 128] ⟨2, ![128, 128]⟩)
    (hs2 : (⟨2, ![128, 512]⟩ : Shape).Slices ![0, 256] ⟨2, ![128, 128]⟩) (hs3 : (⟨2, ![128, 512]⟩ : Shape).Slices ![0, 384] ⟨2, ![128, 128]⟩)
    (h1 : (⟨2, ![128, 128]⟩ : Shape).ShapeCasts ⟨3, ![128, 1, 128]⟩) (h2 : (⟨2, ![128, 128]⟩ : Shape).ShapeCasts ⟨3, ![1, 128, 128]⟩)
    (b1 : (⟨3, ![128, 1, 128]⟩ : Shape).Broadcasts ⟨3, ![128, 128, 128]⟩) (b2 : (⟨3, ![1, 128, 128]⟩ : Shape).Broadcasts ⟨3, ![128, 128, 128]⟩)
    (hr : (⟨3, ![128, 128, 128]⟩ : Shape).Reduces [2] ⟨2, ![128, 128]⟩) (hφ : FKind.Formats .f32)
    (hacc : (0x00000000#32 : BitVec 32) = FKind.add.neutral .f32 hφ) : FVec F ⟨2, ![128, 128]⟩ .f32 :=
  addf (addf (addf (addf (broadcast ⟨2, ![128, 128]⟩ z) (chunkOf 0 v0 v4 hs0 h1 h2 b1 b2 hr hφ hacc))
    (chunkOf 128 v0 v4 hs1 h1 h2 b1 b2 hr hφ hacc)) (chunkOf 256 v0 v4 hs2 h1 h2 b1 b2 hr hφ hacc))
    (chunkOf 384 v0 v4 hs3 h1 h2 b1 b2 hr hφ hacc)

/-- THE FOUR CHUNKS TOGETHER. At (p, q) the accumulated chunk sums are the sum over all 512 features of |v0 p k - v4 q k|:
    a zero, then the four consecutive chunks' sums, regrouped as one sum. -/
theorem tile_apply (v0 v4 : FVec Ideal ⟨2, ![128, 512]⟩ .f32)
    (hs0 : (⟨2, ![128, 512]⟩ : Shape).Slices ![0, 0] ⟨2, ![128, 128]⟩) (hs1 : (⟨2, ![128, 512]⟩ : Shape).Slices ![0, 128] ⟨2, ![128, 128]⟩)
    (hs2 : (⟨2, ![128, 512]⟩ : Shape).Slices ![0, 256] ⟨2, ![128, 128]⟩) (hs3 : (⟨2, ![128, 512]⟩ : Shape).Slices ![0, 384] ⟨2, ![128, 128]⟩)
    (h1 : (⟨2, ![128, 128]⟩ : Shape).ShapeCasts ⟨3, ![128, 1, 128]⟩) (h2 : (⟨2, ![128, 128]⟩ : Shape).ShapeCasts ⟨3, ![1, 128, 128]⟩)
    (b1 : (⟨3, ![128, 1, 128]⟩ : Shape).Broadcasts ⟨3, ![128, 128, 128]⟩) (b2 : (⟨3, ![1, 128, 128]⟩ : Shape).Broadcasts ⟨3, ![128, 128, 128]⟩)
    (hr : (⟨3, ![128, 128, 128]⟩ : Shape).Reduces [2] ⟨2, ![128, 128]⟩) (hφ : FKind.Formats .f32)
    (hacc : (0x00000000#32 : BitVec 32) = FKind.add.neutral .f32 hφ) (p q : Fin 128) :
    tileOf (F := Ideal) (Scalar.ofBits .f32 0x00000000#32) v0 v4 hs0 hs1 hs2 hs3 h1 h2 b1 b2 hr hφ hacc (ix2 p q)
      = ∑ k : Fin 512, gap (v0 (ix2 p k)) (v4 (ix2 q k)) := by
  have hz : (Scalar.ofBits (F := Ideal) .f32 0x00000000#32 : EReal) = 0 := Ideal.ofBits_zero_f32
  unfold tileOf chunkOf
  rw [addf_apply, addf_apply, addf_apply, addf_apply, broadcast_apply, chunk_apply, chunk_apply, chunk_apply, chunk_apply, hz, zero_add,
    sum_four_chunks (fun k => gap (v0 (ix2 p k)) (v4 (ix2 q k)))]
  simp only [slice2_axis1_eq]

/-- ONE STORED PIECE: the accumulated sum subtracted from zero, plus the chunk of the bias row broadcast down the rows. At
    (p, q): minus the sum over all 512 features of |v0 p k - v4 q k|, plus the bias at q. -/
theorem piece_apply (v0 v4 : FVec Ideal ⟨2, ![128, 512]⟩ .f32) (bias : FVec Ideal ⟨2, ![1, 128]⟩ .f32)
    (hb : (⟨2, ![1, 128]⟩ : Shape).Broadcasts ⟨2, ![128, 128]⟩)
    (hs0 : (⟨2, ![128, 512]⟩ : Shape).Slices ![0, 0] ⟨2, ![128, 128]⟩) (hs1 : (⟨2, ![128, 512]⟩ : Shape).Slices ![0, 128] ⟨2, ![128, 128]⟩)
    (hs2 : (⟨2, ![128, 512]⟩ : Shape).Slices ![0, 256] ⟨2, ![128, 128]⟩) (hs3 : (⟨2, ![128, 512]⟩ : Shape).Slices ![0, 384] ⟨2, ![128, 128]⟩)
    (h1 : (⟨2, ![128, 128]⟩ : Shape).ShapeCasts ⟨3, ![128, 1, 128]⟩) (h2 : (⟨2, ![128, 128]⟩ : Shape).ShapeCasts ⟨3, ![1, 128, 128]⟩)
    (b1 : (⟨3, ![128, 1, 128]⟩ : Shape).Broadcasts ⟨3, ![128, 128, 128]⟩) (b2 : (⟨3, ![1, 128, 128]⟩ : Shape).Broadcasts ⟨3, ![128, 128, 128]⟩)
    (hr : (⟨3, ![128, 128, 128]⟩ : Shape).Reduces [2] ⟨2, ![128, 128]⟩) (hφ : FKind.Formats .f32)
    (hacc : (0x00000000#32 : BitVec 32) = FKind.add.neutral .f32 hφ) (p q : Fin 128) :
    addf (subf (broadcast ⟨2, ![128, 128]⟩ (Scalar.ofBits (F := Ideal) .f32 0x00000000#32))
        (tileOf (F := Ideal) (Scalar.ofBits .f32 0x00000000#32) v0 v4 hs0 hs1 hs2 hs3 h1 h2 b1 b2 hr hφ hacc))
      (broadcastTo ⟨2, ![128, 128]⟩ bias hb) (ix2 p q)
      = -(∑ k : Fin 512, gap (v0 (ix2 p k)) (v4 (ix2 q k))) + bias (ix2 (0 : Fin 1) q) := by
  have hz : (Scalar.ofBits (F := Ideal) .f32 0x00000000#32 : EReal) = 0 := Ideal.ofBits_zero_f32
  rw [addf_apply, subf_apply, broadcast_apply, tile_apply, broadcastTo_1b_ab_apply, hz, zero_sub]

end Cert.L1

end
-- ==== Proof.KernelBlock.lean ====
/-
  What one grid point of the kernel leaves in its output block.

  At a grid point the body reads a [128, 512] block of x, the whole [512, 512] w and the [1, 512] bias row, and stores the
  [128, 512] output block in four pieces of 128 columns. Piece j holds, at (p, q), the layer's entry for row p of the
  x block and row 128 j + q of w: the body slices rows 128 j … 128 j + 127 out of w, accumulates the four feature chunks
  against them, subtracts from zero and adds columns 128 j … 128 j + 127 of the bias row. The four pieces tile the block,
  so the block is one function of the three loaded arrays: entry (p, o) is the layer's entry for row p and output feature o.
-/
import proofs.«163117_j77189152243805_2_alg».proof.Proof.Gen.KernelIdeal.Frame
import proofs.«163117_j77189152243805_2_alg».proof.Proof.ChunkSum

set_option maxRecDepth 16384

noncomputable section

namespace Cert.KernelIdeal.Block

open Cert.KernelIdeal Cert.KernelIdeal.Gen Idealize.ShloMosaic Idealize.ShloMosaic.ValueIdx Cert.L1

/-- The output block as one function of the loaded x block, w and bias row. -/
def blockFn (x0 : Vec Ideal S128x512 .f32) (x1 : Vec Ideal S512x512 .f32) (x2 : Vec Ideal S1x512 .f32) : Vec Ideal S128x512 .f32 :=
  fun y => entry x0 x1 (fun o => x2 (ix2 (0 : Fin 1) o)) (y 0) (y 1)

theorem blockFn_apply (x0 : Vec Ideal S128x512 .f32) (x1 : Vec Ideal S512x512 .f32) (x2 : Vec Ideal S1x512 .f32) (p : Fin 128) (o : Fin 512) :
    blockFn x0 x1 x2 (ix2 p o) = entry x0 x1 (fun o => x2 (ix2 (0 : Fin 1) o)) p o := rfl

/-- Piece 0's payload is the stored-piece term over rows 0 … 127 of w and columns 0 … 127 of the bias row. -/
theorem pay_piece0 (x0 : Vec Ideal S128x512 .f32) (x1 : Vec Ideal S512x512 .f32) (x2 : Vec Ideal S1x512 .f32) :
    k0_pay4 (F := Ideal) (k0_pay2 x0 x1) (k0_pay3 x2) (Scalar.ofBits .f32 0x00000000#32)
      = addf (subf (broadcast S128x128 (Scalar.ofBits (F := Ideal) .f32 0x00000000#32))
          (tileOf (F := Ideal) (Scalar.ofBits .f32 0x00000000#32) x0 (extractStridedSlice S128x512 ![0, 0] x1 slices_S512x512_o0_0_S128x512)
            slices_S128x512_o0_0_S128x128 slices_S128x512_o0_128_S128x128 slices_S128x512_o0_256_S128x128 slices_S128x512_o0_384_S128x128
            shapeCasts_S128x128_S128x1x128 shapeCasts_S128x128_S1x128x128 broadcasts_S128x1x128_S128x128x128 broadcasts_S1x128x128_S128x128x128
            reduces_S128x128x128_S128x128 (.inl rfl) rfl))
        (broadcastTo S128x128 (extractStridedSlice S1x128 ![0, 0] (shapeCast S1x512 x2 shapeCasts_S1x512_S1x512) slices_S1x512_o0_0_S1x128)
          broadcasts_S1x128_S128x128) := rfl

/-- Piece 0 at (p, q) is the layer's entry for row p of the x block and output feature 0 + q. -/
theorem piece0_apply (x0 : Vec Ideal S128x512 .f32) (x1 : Vec Ideal S512x512 .f32) (x2 : Vec Ideal S1x512 .f32) (p q : Fin 128) :
    k0_pay4 (F := Ideal) (k0_pay2 x0 x1) (k0_pay3 x2) (Scalar.ofBits .f32 0x00000000#32) (ix2 p q)
      = entry x0 x1 (fun o => x2 (ix2 (0 : Fin 1) o)) p (⟨0 + q.val, by have := q.isLt; omega⟩ : Fin 512) := by
  rw [pay_piece0]
  refine (piece_apply x0 _ _ _ _ _ _ _ _ _ _ _ _ _ _ p q).trans ?_
  unfold entry
  simp only [slice2_axis0_eq, slice2_axis1_eq, shapeCast_self]

/-- Piece 1's payload is the stored-piece term over rows 128 … 255 of w and columns 128 … 255 of the bias row. -/
theorem pay_piece1 (x0 : Vec Ideal S128x512 .f32) (x1 : Vec Ideal S512x512 .f32) (x2 : Vec Ideal S1x512 .f32) :
    k0_pay7 (F := Ideal) (k0_pay5 x0 x1) (k0_pay6 (k0_pay1 x2))
      = addf (subf (broadcast S128x128 (Scalar.ofBits (F := Ideal) .f32 0x00000000#32))
          (tileOf (F := Ideal) (Scalar.ofBits .f32 0x00000000#32) x0 (extractStridedSlice S128x512 ![128, 0] x1 slices_S512x512_o128_0_S128x512)
            slices_S128x512_o0_0_S128x128 slices_S128x512_o0_128_S128x128 slices_S128x512_o0_256_S128x128 slices_S128x512_o0_384_S128x128
            shapeCasts_S128x128_S128x1x128 shapeCasts_S128x128_S1x128x128 broadcasts_S128x1x128_S128x128x128 broadcasts_S1x128x128_S128x128x128
            reduces_S128x128x128_S128x128 (.inl rfl) rfl))
        (broadcastTo S128x128 (extractStridedSlice S1x128 ![0, 128] (shapeCast S1x512 x2 shapeCasts_S1x512_S1x512) slices_S1x512_o0_128_S1x128)
          broadcasts_S1x128_S128x128) := rfl

/-- Piece 1 at (p, q) is the layer's entry for row p of the x block and output feature 128 + q. -/
theorem piece1_apply (x0 : Vec Ideal S128x512 .f32) (x1 : Vec Ideal S512x512 .f32) (x2 : Vec Ideal S1x512 .f32) (p q : Fin 128) :
    k0_pay7 (F := Ideal) (k0_pay5 x0 x1) (k0_pay6 (k0_pay1 x2)) (ix2 p q)
      = entry x0 x1 (fun o => x2 (ix2 (0 : Fin 1) o)) p (⟨128 + q.val, by have := q.isLt; omega⟩ : Fin 512) := by
  rw [pay_piece1]
  refine (piece_apply x0 _ _ _ _ _ _ _ _ _ _ _ _ _ _ p q).trans ?_
  unfold entry
  simp only [slice2_axis0_eq, slice2_axis1_eq, shapeCast_self]

/-- Piece 2's payload is the stored-piece term over rows 256 … 383 of w and columns 256 … 383 of the bias row. -/
theorem pay_piece2 (x0 : Vec Ideal S128x512 .f32) (x1 : Vec Ideal S512x512 .f32) (x2 : Vec Ideal S1x512 .f32) :
    k0_pay8 (F := Ideal) x0 x1 (k0_pay1 x2)
      = addf (subf (broadcast S128x128 (Scalar.ofBits (F := Ideal) .f32 0x00000000#32))
          (tileOf (F := Ideal) (Scalar.ofBits .f32 0x00000000#32) x0 (extractStridedSlice S128x512 ![256, 0] x1 slices_S512x512_o256_0_S128x512)
            slices_S128x512_o0_0_S128x128 slices_S128x512_o0_128_S128x128 slices_S128x512_o0_256_S128x128 slices_S128x512_o0_384_S128x128
            shapeCasts_S128x128_S128x1x128 shapeCasts_S128x128_S1x128x128 broadcasts_S128x1x128_S128x128x128 broadcasts_S1x128x128_S128x128x128
            reduces_S128x128x128_S128x128 (.inl rfl) rfl))
        (broadcastTo S128x128 (extractStridedSlice S1x128 ![0, 256] (shapeCast S1x512 x2 shapeCasts_S1x512_S1x512) slices_S1x512_o0_256_S1x128)
          broadcasts_S1x128_S128x128) := rfl

/-- Piece 2 at (p, q) is the layer's entry for row p of the x block and output feature 256 + q. -/
theorem piece2_apply (x0 : Vec Ideal S128x512 .f32) (x1 : Vec Ideal S512x512 .f32) (x2 : Vec Ideal S1x512 .f32) (p q : Fin 128) :
    k0_pay8 (F := Ideal) x0 x1 (k0_pay1 x2) (ix2 p q)
      = entry x0 x1 (fun o => x2 (ix2 (0 : Fin 1) o)) p (⟨256 + q.val, by have := q.isLt; omega⟩ : Fin 512) := by
  rw [pay_piece2]
  refine (piece_apply x0 _ _ _ _ _ _ _ _ _ _ _ _ _ _ p q).trans ?_
  unfold entry
  simp only [slice2_axis0_eq, slice2_axis1_eq, shapeCast_self]

/-- Piece 3's payload is the stored-piece term over rows 384 … 511 of w and columns 384 … 511 of the bias row. -/
theorem pay_piece3 (x0 : Vec Ideal S128x512 .f32) (x1 : Vec Ideal S512x512 .f32) (x2 : Vec Ideal S1x512 .f32) :
    k0_pay9 (F := Ideal) x0 x1 (k0_pay1 x2)
      = addf (subf (broadcast S128x128 (Scalar.ofBits (F := Ideal) .f32 0x00000000#32))
          (tileOf (F := Ideal) (Scalar.ofBits .f32 0x00000000#32) x0 (extractStridedSlice S128x512 ![384, 0] x1 slices_S512x512_o384_0_S128x512)
            slices_S128x512_o0_0_S128x128 slices_S128x512_o0_128_S128x128 slices_S128x512_o0_256_S128x128 slices_S128x512_o0_384_S128x128
            shapeCasts_S128x128_S128x1x128 shapeCasts_S128x128_S1x128x128 broadcasts_S128x1x128_S128x128x128 broadcasts_S1x128x128_S128x128x128
            reduces_S128x128x128_S128x128 (.inl rfl) rfl))
        (broadcastTo S128x128 (extractStridedSlice S1x128 ![0, 384] (shapeCast S1x512 x2 shapeCasts_S1x512_S1x512) slices_S1x512_o0_384_S1x128)
          broadcasts_S1x128_S128x128) := rfl

/-- Piece 3 at (p, q) is the layer's entry for row p of the x block and output feature 384 + q. -/
theorem piece3_apply (x0 : Vec Ideal S128x512 .f32) (x1 : Vec Ideal S512x512 .f32) (x2 : Vec Ideal S1x512 .f32) (p q : Fin 128) :
    k0_pay9 (F := Ideal) x0 x1 (k0_pay1 x2) (ix2 p q)
      = entry x0 x1 (fun o => x2 (ix2 (0 : Fin 1) o)) p (⟨384 + q.val, by have := q.isLt; omega⟩ : Fin 512) := by
  rw [pay_piece3]
  refine (piece_apply x0 _ _ _ _ _ _ _ _ _ _ _ _ _ _ p q).trans ?_
  unfold entry
  simp only [slice2_axis0_eq, slice2_axis1_eq, shapeCast_self]

/-! ## The four pieces tile the block -/

theorem zero_off : (![0, 0] : Fin 2 → Nat) = fun _ => 0 := funext fun a => by fin_cases a <;> rfl

/-- The store rectangle of 128 columns from `o` places its local index (p, q) at (p, o + q) of the block. -/
theorem emb_piece (o : ℕ) (inb : ∀ a, (![0, o] : Fin 2 → ℕ) a + S128x128.size a ≤ S128x512.size a) (ho : o + 128 ≤ 512) (p q : Fin 128) :
    (Rect.unit (s := S128x512) ![0, o] S128x128.size inb).emb (ix2 p q)
      = (ix2 p (⟨o + q.val, by have := q.isLt; omega⟩ : Fin 512) : S128x512.Idx) := by
  funext a
  apply Fin.ext
  match a with
  | ⟨0, _⟩ => show 0 + 1 * p.val = p.val; omega
  | ⟨1, _⟩ => show o + 1 * q.val = o + q.val; omega

/-- THE BLOCK: what the body's four stores leave in the output's staging buffer is `blockFn` of the three loaded arrays. -/
theorem out_eq (x0 : Vec Ideal S128x512 .f32) (x1 : Vec Ideal S512x512 .f32) (x2 : Vec Ideal S1x512 .f32) :
    out0_3 (F := Ideal) x0 x1 x2 = blockFn x0 x1 x2 := by
  funext y
  unfold out0_3
  simp only [View.ld_unit_zero (S := S128x512) zero_off, View.ld_unit_zero (S := S512x512) zero_off, View.ld_unit_zero (S := S1x512) zero_off]
  refine View.canon_apply_of_pieces (blockFn x0 x1 x2) _ ?_ y (cover0_3 _ _ _ _ y)
  intro pc hpc x
  simp only [List.mem_cons, List.not_mem_nil, or_false] at hpc
  rcases hpc with rfl | rfl | rfl | rfl
  · obtain ⟨p, q, rfl⟩ : ∃ (p q : Fin 128), x = ix2 p q := ⟨x 0, x 1, eq_ix2 x⟩
    show k0_pay9 (F := Ideal) x0 x1 (k0_pay1 x2) (ix2 p q) = blockFn x0 x1 x2 (r0_6.emb (ix2 p q))
    rw [piece3_apply, emb_piece 384 _ (by decide) p q, blockFn_apply]
  · obtain ⟨p, q, rfl⟩ : ∃ (p q : Fin 128), x = ix2 p q := ⟨x 0, x 1, eq_ix2 x⟩
    show k0_pay8 (F := Ideal) x0 x1 (k0_pay1 x2) (ix2 p q) = blockFn x0 x1 x2 (r0_5.emb (ix2 p q))
    rw [piece2_apply, emb_piece 256 _ (by decide) p q, blockFn_apply]
  · obtain ⟨p, q, rfl⟩ : ∃ (p q : Fin 128), x = ix2 p q := ⟨x 0, x 1, eq_ix2 x⟩
    show k0_pay7 (F := Ideal) (k0_pay5 x0 x1) (k0_pay6 (k0_pay1 x2)) (ix2 p q) = blockFn x0 x1 x2 (r0_4.emb (ix2 p q))
    rw [piece1_apply, emb_piece 128 _ (by decide) p q, blockFn_apply]
  · obtain ⟨p, q, rfl⟩ : ∃ (p q : Fin 128), x = ix2 p q := ⟨x 0, x 1, eq_ix2 x⟩
    show k0_pay4 (F := Ideal) (k0_pay2 x0 x1) (k0_pay3 x2) (Scalar.ofBits .f32 0x00000000#32) (ix2 p q) = blockFn x0 x1 x2 (r0_3.emb (ix2 p q))
    rw [piece0_apply, emb_piece 0 _ (by decide) p q, blockFn_apply]

end Cert.KernelIdeal.Block

end
-- ==== Proof.KernelValue.lean ====
/-
  The kernel's result array is the L1 layer of its three arguments.

  Grid point t reads rows 128 t … 128 t + 127 of x, all of w and the bias vector laid out as one row, and writes rows
  128 t … 128 t + 127 of the result: each row block is the layer restricted to those rows, because an entry depends on its
  own row of x only. The eight row blocks tile the [1024, 512] result, so after the run the whole array is the layer.
-/
import proofs.«163117_j77189152243805_2_alg».proof.Proof.Gen.KernelIdeal.Value
import proofs.«163117_j77189152243805_2_alg».proof.Proof.KernelBlock
import Idealize.ShloMosaic.Lib.StableHlo.Run
import Idealize.ShloMosaic.Lib.Tactic

set_option maxRecDepth 16384

noncomputable section

namespace Cert.KernelIdeal.Grid

open Cert.KernelIdeal Cert.KernelIdeal.Gen Cert.KernelIdeal.Value Cert.KernelIdeal.Block
open Idealize.ShloMosaic Idealize.ShloMosaic.TcCoe Idealize.SL.Sem Idealize.ShloMosaic.ValueIdx Cert.L1
open Idealize.ShloMosaic.Pipeline (Dat)

variable (m : (ℓ : Loc nD τ sig) → Buf (Elt Ideal) ℓ) (ρ : Dev nD → PrngReg)

/-- The bias row the region finds is the bias vector reshaped to one row. -/
theorem V_bias (c : Dev nD) : (V m c main_v0 : S1x512.Idx → EReal)
    = shapeCast S1x512 (m ((c : Thread nD τ).loc main_arg2) : S512.Idx → EReal) shapeCasts_S512_S1x512 := by
  dsimp only [Gen.V, Gen.hostOps0]; after_results; rfl

/-- The index maps, decided over the eight grid points: x and the result move down one row block per point, w and the
    bias row stay at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Every row block of the result is some grid point's. -/
theorem idx_onto : ∀ q0 : Fin 8, ∃ t : Fin cfg0.N, win0_3.index t = ![q0.val, 0] :=
  (by decide +kernel : ∀ q0 : Fin 8, ∃ t : Fin grid0.N, win0_3.index t = ![q0.val, 0])

/-- The x block at point t is rows 128 t … 128 t + 127 of x. -/
theorem iblk0_apply (c : Dev nD) (t : Fin cfg0.N) (p : Fin 128) (k : Fin 512) (r : Fin 1024) (hr : r.val = 128 * t.val + p.val) :
    (iblk m c 0 t : Vec Ideal S128x512 .f32) (ix2 p k)
      = (m ((c : Thread nD τ).loc main_arg0) : S1024x512.Idx → Elt Ideal .f32) (ix2 r k) := by
  obtain ⟨e0, e1, -⟩ := idx_facts t
  unfold iblk
  rw [View.read_apply]
  show V m c main_arg0 _ = m (c.tc.loc main_arg0) _
  rw [V_main_arg0]
  congr 1
  funext a
  apply Fin.ext
  match a with
  | ⟨0, _⟩ => show win0_0.index t 0 * 128 + 1 * p.val = r.val; rw [e0, hr]; omega
  | ⟨1, _⟩ => show win0_0.index t 1 * 512 + 1 * k.val = k.val; rw [e1]; omega

/-- The w block at every point is all of w. -/
theorem iblk1_apply (c : Dev nD) (t : Fin cfg0.N) (o k : Fin 512) :
    (iblk m c 1 t : Vec Ideal S512x512 .f32) (ix2 o k)
      = (m ((c : Thread nD τ).loc main_arg1) : S512x512.Idx → Elt Ideal .f32) (ix2 o k) := by
  obtain ⟨-, -, e2, e3, -⟩ := idx_facts t
  unfold iblk
  rw [View.read_apply]
  show V m c main_arg1 _ = m (c.tc.loc main_arg1) _
  rw [V_main_arg1]
  congr 1
  funext a
  apply Fin.ext
  match a with
  | ⟨0, _⟩ => show win0_1.index t 0 * 512 + 1 * o.val = o.val; rw [e2]; omega
  | ⟨1, _⟩ => show win0_1.index t 1 * 512 + 1 * k.val = k.val; rw [e3]; omega

/-- The bias block at every point is the whole bias row: at (0, o) the bias vector at o. -/
theorem iblk2_apply (c : Dev nD) (t : Fin cfg0.N) (o : Fin 512) :
    (iblk m c 2 t : Vec Ideal S1x512 .f32) (ix2 (0 : Fin 1) o)
      = (m ((c : Thread nD τ).loc main_arg2) : S512.Idx → Elt Ideal .f32) (ix1 o) := by
  obtain ⟨-, -, -, -, e4, e5, -⟩ := idx_facts t
  unfold iblk
  rw [View.read_apply]
  show (V m c main_v0 : S1x512.Idx → EReal) _ = m (c.tc.loc main_arg2) _
  rw [V_bias]
  refine (congrArg _ (?_ : _ = (ix2 (0 : Fin 1) o : S1x512.Idx))).trans (shapeCast_a_1a_apply _ _ (0 : Fin 1) o)
  funext a
  apply Fin.ext
  match a with
  | ⟨0, _⟩ => show win0_2.index t 0 * 1 + 1 * 0 = 0; rw [e4]
  | ⟨1, _⟩ => show win0_2.index t 1 * 512 + 1 * o.val = o.val; rw [e5]; omega

/-- WHAT POINT t WRITES BACK is block t of the layer of the three argument arrays. -/
theorem flushed_eq (c : Dev nD) (t : Fin cfg0.N) :
    (dats m 0 c).flushed 3 t = ((cfg0.win 3).blk t).view.read (Elt Ideal)
      (layer (m ((c : Thread nD τ).loc main_arg0)) (m ((c : Thread nD τ).loc main_arg1)) (m ((c : Thread nD τ).loc main_arg2))) := by
  rw [flushed3, out_eq]
  obtain ⟨-, -, -, -, -, -, e6, e7⟩ := idx_facts t
  have ht : t.val < 8 := lt_of_lt_of_eq t.isLt N_0
  funext j
  obtain ⟨p, o, rfl⟩ : ∃ (p : Fin 128) (o : Fin 512), j = (ix2 p o : S128x512.Idx) := ⟨j 0, j 1, @eq_ix2 128 512 j⟩
  show blockFn (iblk m c 0 t) (iblk m c 1 t) (iblk m c 2 t) (ix2 p o) = layer _ _ _ (((cfg0.win 3).blk t).view.emb (ix2 p o))
  have hemb : ((cfg0.win 3).blk t).view.emb (ix2 p o)
      = (ix2 (⟨128 * t.val + p.val, by have := p.isLt; omega⟩ : Fin 1024) o : S1024x512.Idx) := by
    funext a
    apply Fin.ext
    match a with
    | ⟨0, _⟩ => show win0_3.index t 0 * 128 + 1 * p.val = 128 * t.val + p.val; rw [e6]; omega
    | ⟨1, _⟩ => show win0_3.index t 1 * 512 + 1 * o.val = o.val; rw [e7]; omega
  rw [hemb, blockFn_apply]
  show entry _ _ _ p o = entry _ _ _ (⟨128 * t.val + p.val, _⟩ : Fin 1024) o
  unfold entry
  refine congrArg₂ (· + ·) (congrArg Neg.neg (Finset.sum_congr rfl fun k _ => ?_)) ?_
  · exact congrArg₂ gap (iblk0_apply m c t p k _ rfl) (iblk1_apply m c t o k)
  · exact iblk2_apply m c t o

/-- An index of the result is in point t's block iff each coordinate is in the block's range on its axis. -/
theorem mem_blk (t : Fin cfg0.N) (i : S1024x512.Idx) :
    i ∈ ((cfg0.win 3).blk t).view.set ↔ ∀ a : Fin 2, win0_3.index t a * S128x512.size a ≤ (i a).val
      ∧ (i a).val < win0_3.index t a * S128x512.size a + S128x512.size a := by
  show i ∈ ((View.whole main_v1).slice (win0_3.rect t)).set ↔ _
  rw [View.set_slice_whole, Rect.mem_set_unit]
  exact Iff.rfl

/-- The eight row blocks cover the result: row r is in the block of point r / 128. -/
theorem cover (i : S1024x512.Idx) : ∃ t : Fin cfg0.N, (cfg0.win 3).flush t = true ∧ i ∈ ((cfg0.win 3).blk t).view.set := by
  have hi0 : (i 0).val < 1024 := (i 0).isLt
  have hi1 : (i 1).val < 512 := (i 1).isLt
  obtain ⟨t, ht⟩ := idx_onto ⟨(i 0).val / 128, by omega⟩
  have q0 : win0_3.index t (0 : Fin 2) = (i 0).val / 128 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 128 ≤ (i 0).val ∧ (i 0).val < win0_3.index t (0 : Fin 2) * 128 + 128; omega
  | ⟨1, _⟩ => show win0_3.index t (1 : Fin 2) * 512 ≤ (i 1).val ∧ (i 1).val < win0_3.index t (1 : Fin 2) * 512 + 512; omega

/-- THE RESULT ARRAY after the run is the layer of the argument arrays. -/
theorem final (c : Dev nD) : (dats m 0 c).arrAt 3 cfg0.N
    = layer (m ((c : Thread nD τ).loc main_arg0)) (m ((c : Thread nD τ).loc main_arg1)) (m ((c : Thread nD τ).loc main_arg2)) :=
  (dats m 0 c).arrAt_eq_of_cover 3 _ (fun t _ => flushed_eq m c t) cover

/-- The run, read: the result array at the layer of the arguments, the arguments unchanged. -/
theorem run : θ_run defs (onTc (τ := τ) (main (F := Ideal))) ⟨m, fun _ => 0, ρ⟩ fun r => ∀ c : Dev nD,
      r.2.mem ((c : Thread nD τ).loc main_v1)
        = layer (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.Grid

end
-- ==== Proof.RefLayer.lean ====
/-
  The reference program's result is the L1 layer, entry by entry.

  The reference broadcasts x to [1024, 1, 512] and w to [1, 512, 512], both on to [1024, 512, 512], subtracts, takes
  absolute values, sums over the last axis from a zero initial value, negates, and adds the bias broadcast down the rows.
  Read at an entry (r, o) that is - (0 + ∑ k, |x r k - w o k|) + b o, the layer's entry.
-/
import proofs.«163117_j77189152243805_2_alg».proof.Proof.Gen.ReferenceIdeal.Read
import proofs.«163117_j77189152243805_2_alg».proof.Proof.ChunkSum

noncomputable section

namespace Cert.ReferenceIdeal.Layer

open Cert.ReferenceIdeal Cert.ReferenceIdeal.Gen Cert.ReferenceIdeal.Read Idealize.ShloMosaic Idealize.ShloMosaic.ValueIdx Cert.L1

/-- The reference's last stage is the layer of its three arguments. -/
theorem ref_eq_layer (x0 : (⟨S1024x512, .f32⟩ : BufTy).Contents (Elt Ideal)) (x1 : (⟨S512x512, .f32⟩ : BufTy).Contents (Elt Ideal))
    (x2 : (⟨S512, .f32⟩ : BufTy).Contents (Elt Ideal)) :
    val_main_v10 (F := Ideal) x0 x1 x2 = layer x0 x1 x2 := by
  funext i
  have e0 : ∀ k : Fin 512, idx_main_v0 (idx_main_v2 (idx_main_v6 i k)) = ix2 (i 0) k := fun k =>
    funext fun a => Fin.ext (by match a with | ⟨0, _⟩ => rfl | ⟨1, _⟩ => rfl)
  have e1 : ∀ k : Fin 512, idx_main_v1 (idx_main_v3 (idx_main_v6 i k)) = ix2 (i 1) k := fun k =>
    funext fun a => Fin.ext (by match a with | ⟨0, _⟩ => rfl | ⟨1, _⟩ => rfl)
  have e2 : idx_main_v8 (idx_main_v9 i) = ix1 (i 1) :=
    funext fun a => Fin.ext (by match a with | ⟨0, _⟩ => rfl)
  rw [val_main_v10_apply, val_main_v7_apply, val_main_v6_apply, val_main_v9_apply, val_main_v8_apply, e2]
  simp only [val_main_v5_apply, val_main_v4_apply, val_main_v2_apply, val_main_v0_apply, val_main_v3_apply, val_main_v1_apply,
    e0, e1, val_main_cst_apply]
  show -(Ideal.ofBits .f32 0x00000000#32 + _) + _ = _
  rw [Ideal.ofBits_zero_f32, zero_add]
  rfl

end Cert.ReferenceIdeal.Layer

end
-- ==== Proof.lean ====
/-
  The kernel computes the L1 ("addition") linear layer
      y r o = - (∑ k, |x r k - w o k|) + b o
  of x [1024, 512], w [512, 512] and b [512], and so does the reference.

  The kernel walks the batch in eight row blocks of 128; within a block it handles the 512 output features in four
  groups of 128 and, for each group, the 512 input features in four chunks of 128, adding the chunks' sums of
  absolute differences onto a zero accumulator, subtracting the total from zero and adding the bias. The reference forms
  all 1024 × 512 × 512 differences at once, sums over the input features, negates and adds the bias. On the extended
  reals the two agree entry by entry by associativity and commutativity of the addition (the sum over 512 features is the
  sum of its four chunks' sums), 0 - s = -s and 0 + s = s; no finiteness of the inputs is needed, so the precondition
  is never opened.

  Modules: LibTileSum (a sum over T * R consecutive terms regrouped tile by tile), LibPairwiseLayout (the casts and
  broadcasts that set every row of one matrix against every row of another, read at an index), ChunkSum (the layer as a
  function, one chunk and the four chunks read at an index, the regrouping of the sum),
  KernelBlock (the body's four stored pieces are one block of the layer), KernelValue (the eight blocks are the whole
  result array; the kernel's run), RefLayer (the reference's term is the layer). The frames are the generated ones; the
  idealization rewrote nothing, so there is nothing to preserve.
-/
import proofs.«163117_j77189152243805_2_alg».proof.Defs
import proofs.«163117_j77189152243805_2_alg».proof.Proof.Gen.Kernel
import proofs.«163117_j77189152243805_2_alg».proof.Proof.Gen.Kernel.Frame
import proofs.«163117_j77189152243805_2_alg».proof.Proof.Gen.KernelIdeal
import proofs.«163117_j77189152243805_2_alg».proof.Proof.Gen.KernelIdeal.Frame
import proofs.«163117_j77189152243805_2_alg».proof.Proof.Gen.KernelIdeal.Value
import proofs.«163117_j77189152243805_2_alg».proof.Proof.Gen.ReferenceIdeal
import proofs.«163117_j77189152243805_2_alg».proof.Proof.Gen.ReferenceIdeal.Run
import proofs.«163117_j77189152243805_2_alg».proof.Proof.Gen.ReferenceIdeal.Read
import proofs.«163117_j77189152243805_2_alg».proof.Proof.Gen.Pre_finite_inputs
import proofs.«163117_j77189152243805_2_alg».proof.Proof.KernelValue
import proofs.«163117_j77189152243805_2_alg».proof.Proof.RefLayer

noncomputable section

namespace Cert.Proof

open Idealize.ShloMosaic Idealize.ShloMosaic.TcCoe Idealize.SL.Sem

/-- The kernel as printed terminates without a fault and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the layer of their (agreeing) arguments in the result array. -/
theorem algebraic : Cert.algebraic_KernelIdeal_ReferenceIdeal := by
  intro m ρ m' ρ' _ hagree
  refine ⟨_, Cert.KernelIdeal.Grid.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.ReferenceIdeal.Layer.ref_eq_layer,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
